-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 114
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x64, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x64, .f32⟩
  | .hbm, ⟨104, _⟩ => ⟨S850000x1, .f32⟩
  | .hbm, ⟨105, _⟩ => ⟨S850000x64, .f32⟩
  | .hbm, ⟨106, _⟩ => ⟨S850000x64, .f32⟩
  | .hbm, ⟨107, _⟩ => ⟨S_, .f32⟩
  | .hbm, ⟨108, _⟩ => ⟨S50000x64, .f32⟩
  | .hbm, ⟨109, _⟩ => ⟨S850000x1, .i32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x64, .f32⟩
  | 3 => ⟨S50000, .i32⟩
  | 4 => ⟨S850000, .i32⟩
  | 5 => ⟨S850000, .i32⟩
  | 6 => ⟨S_, .f32⟩
  | 7 => ⟨S850000, .f32⟩
  | 8 => ⟨S_, .f32⟩
  | 9 => ⟨S50000, .f32⟩
  | 10 => ⟨S850000x1, .i32⟩
  | 11 => ⟨S50000, .f32⟩
  | 12 => ⟨S_, .f32⟩
  | 13 => ⟨S50000, .f32⟩
  | 14 => ⟨S50000, .i1⟩
  | 15 => ⟨S50000, .f32⟩
  | 16 => ⟨S_, .f32⟩
  | 17 => ⟨S_, .f32⟩
  | 18 => ⟨S50000, .f32⟩
  | 19 => ⟨S50000, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x64, .f32⟩
  | 48 => ⟨S850000x1, .f32⟩
  | 49 => ⟨S850000x64, .f32⟩
  | 50 => ⟨S850000x64, .f32⟩
  | 51 => ⟨S_, .f32⟩
  | 52 => ⟨S50000x64, .f32⟩
  | 53 => ⟨S850000x1, .i32⟩
  | 54 => ⟨S50000x64, .f32⟩
  | 55 => ⟨S1x64, .f32⟩
  | 56 => ⟨S50000x64, .f32⟩
  | 57 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v103 : Ref sig .tc := ⟨.hbm, 147, rfl⟩
abbrev main_c_24 : Ref sig .tc := ⟨.hbm, 148, rfl⟩
abbrev main_v104 : Ref sig .tc := ⟨.hbm, 149, rfl⟩
abbrev main_v105 : Ref sig .tc := ⟨.hbm, 150, rfl⟩
abbrev main_c_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_c_26 : Ref sig .tc := ⟨.hbm, 157, rfl⟩
abbrev main_v111 : Ref sig .tc := ⟨.hbm, 158, rfl⟩
abbrev main_v112 : Ref sig .tc := ⟨.hbm, 159, rfl⟩
abbrev main_c_27 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Net.lean ====
/-
  One graph-convolution layer, as the whole-array function both programs apply.

  The graph has 50000 nodes and 800000 edges, given as a table of two rows: the sources and the destinations.
  Each node also gets an edge to itself, so the two endpoint lists have 850000 entries: the table's row followed
  by the node numbers 0 … 49999. The degree of a node is the number of entries of the destination list equal to it
  (a scatter-add of ones); `dinv` is its inverse square root where the degree is positive and zero elsewhere; the
  coefficient of an edge is the product of `dinv` at its two endpoints (two gathers, each through an index wrapped
  into range when negative).
  A layer takes node features `h` (already multiplied by the layer's weight matrix), gathers the row of each edge's
  source, scales it by the edge's coefficient, adds the scaled rows into the rows of the destinations (a scatter-add
  into zero), and adds the bias to every row. The two hidden layers end with a maximum against zero.
  Nothing here is opened by the proofs that use it: the two programs are compared by what they feed these functions.
-/
import proofs.«121771_j28501402976601_2_alg».proof.Proof.Gen.KernelIdeal

noncomputable section

namespace Cert.KernelIdeal.Net

open Cert.KernelIdeal Cert.KernelIdeal.Facts₀ Cert.KernelIdeal.Facts Idealize.ShloMosaic

variable {F : FTy → Type} [FloatOps F]

/-- Row `r` of the edge table followed by the node numbers: the endpoint list with the self-edges appended. -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- An index list as a column of one-entry index vectors. -/
def colIdx (v : (⟨S850000, .i32⟩ : BufTy).Contents (Elt F)) : (⟨S850000x1, .i32⟩ : BufTy).Contents (Elt F) :=
  broadcastInDim S850000x1 ![0] bcast_S850000_S850000x1_0 v

/-- The same, each negative index first moved up by the number of nodes. -/
def wrapIdx (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The number of list entries equal to each node. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (colIdx d) (broadcastInDim S850000 ![] bcast_S_S850000 (constant S_ .f32 0x3F800000#32))

/-- The inverse square root of the degree where it is positive, zero elsewhere. -/
def dinvOf (d : (⟨S850000, .i32⟩ : BufTy).Contents (Elt F)) : (⟨S50000, .f32⟩ : BufTy).Contents (Elt F) :=
  select (cmpf (F := F) .ogt (degOf d) (broadcastInDim S50000 ![] bcast_S_S50000 (constant S_ .f32 0x00000000#32)))
    (Host.rsqrt (degOf d)) (broadcastInDim S50000 ![] bcast_S_S50000 (constant S_ .f32 0x00000000#32))

/-- Each edge's coefficient: `dinv` at its source times `dinv` at its destination. -/
def coefOf (s d : (⟨S850000, .i32⟩ : BufTy).Contents (Elt F)) : (⟨S850000, .f32⟩ : BufTy).Contents (Elt F) :=
  mulf (Host.gather gather_S50000_S850000x1_S850000_n_0_n_n_0_1_1 (dinvOf d) (wrapIdx s))
    (Host.gather gather_S50000_S850000x1_S850000_n_0_n_n_0_1_1 (dinvOf d) (wrapIdx d))

/-- Rows of `h` gathered at the sources, scaled by the coefficients, summed into the destinations (128 features). -/
def agg128 (h : (⟨S50000x128, .f32⟩ : BufTy).Contents (Elt F)) (s d : (⟨S850000, .i32⟩ : BufTy).Contents (Elt F))
    (cf : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (colIdx d)
    (mulf (Host.gather gather_S50000x128_S850000x1_S850000x128_1_0_n_n_0_1_1128 h (wrapIdx s))
      (broadcastInDim S850000x128 ![0, 1] bcast_S850000x1_S850000x128_0_1 (broadcastInDim S850000x1 ![0] bcast_S850000_S850000x1_0 cf)))

/-- The same with 64 features. -/
def agg64 (h : (⟨S50000x64, .f32⟩ : BufTy).Contents (Elt F)) (s d : (⟨S850000, .i32⟩ : BufTy).Contents (Elt F))
    (cf : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32))
    (colIdx d)
    (mulf (Host.gather gather_S50000x64_S850000x1_S850000x64_1_0_n_n_0_1_164 h (wrapIdx s))
      (broadcastInDim S850000x64 ![0, 1] bcast_S850000x1_S850000x64_0_1 (broadcastInDim S850000x1 ![0] bcast_S850000_S850000x1_0 cf)))

/-- The maximum against zero, entry by entry. -/
def relu128 (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- A bias, given as one row, repeated down the 50000 rows. -/
def rowBias128 (row : (⟨S1x128, .f32⟩ : BufTy).Contents (Elt F)) : (⟨S50000x128, .f32⟩ : BufTy).Contents (Elt F) :=
  broadcastInDim S50000x128 ![0, 1] bcast_S1x128_S50000x128_0_1 row

def rowBias64 (row : (⟨S1x64, .f32⟩ : BufTy).Contents (Elt F)) : (⟨S50000x64, .f32⟩ : BufTy).Contents (Elt F) :=
  broadcastInDim S50000x64 ![0, 1] bcast_S1x64_S50000x64_0_1 row

/-- The node features times a weight matrix: the plain matrix product, 128 or 64 output features. -/
def dot128 (l : (⟨S50000x128, .f32⟩ : BufTy).Contents (Elt F)) (r : (⟨S128x128, .f32⟩ : BufTy).Contents (Elt F)) :
    (⟨S50000x128, .f32⟩ : BufTy).Contents (Elt F) :=
  Host.dotGeneral (DotDims.plain 50000 128 128) none l r

def dot64 (l : (⟨S50000x128, .f32⟩ : BufTy).Contents (Elt F)) (r : (⟨S128x64, .f32⟩ : BufTy).Contents (Elt F)) :
    (⟨S50000x64, .f32⟩ : BufTy).Contents (Elt F) :=
  Host.dotGeneral (DotDims.plain 50000 128 64) none l r

/-- A hidden layer from the product `h` and the bias already laid out: aggregate, add the bias, clamp at zero. -/
def hiddenLayer (h : (⟨S50000x128, .f32⟩ : BufTy).Contents (Elt F)) (s d : (⟨S850000, .i32⟩ : BufTy).Contents (Elt F))
    (cf : (⟨S850000, .f32⟩ : BufTy).Contents (Elt F)) (bias : (⟨S50000x128, .f32⟩ : BufTy).Contents (Elt F)) :
    (⟨S50000x128, .f32⟩ : BufTy).Contents (Elt F) :=
  relu128 (addf (agg128 h s d cf) bias)

/-- The last layer: aggregate and add the bias. -/
def lastLayer (h : (⟨S50000x64, .f32⟩ : BufTy).Contents (Elt F)) (s d : (⟨S850000, .i32⟩ : BufTy).Contents (Elt F))
    (cf : (⟨S850000, .f32⟩ : BufTy).Contents (Elt F)) (bias : (⟨S50000x64, .f32⟩ : BufTy).Contents (Elt F)) :
    (⟨S50000x64, .f32⟩ : BufTy).Contents (Elt F) :=
  addf (agg64 h s d cf) bias

/-- The three layers over given endpoint lists and coefficients; the biases come already laid as rows. -/
def netWith (s d : (⟨S850000, .i32⟩ : BufTy).Contents (Elt F)) (cf : (⟨S850000, .f32⟩ : BufTy).Contents (Elt F))
    (r0 r1 : (⟨S1x128, .f32⟩ : BufTy).Contents (Elt F)) (r2 : (⟨S1x64, .f32⟩ : BufTy).Contents (Elt F))
    (x : (⟨S50000x128, .f32⟩ : BufTy).Contents (Elt F)) (w0 w1 : (⟨S128x128, .f32⟩ : BufTy).Contents (Elt F))
    (w2 : (⟨S128x64, .f32⟩ : BufTy).Contents (Elt F)) : (⟨S50000x64, .f32⟩ : BufTy).Contents (Elt F) :=
  lastLayer (dot64 (hiddenLayer (dot128 (hiddenLayer (dot128 x w0) s d cf (rowBias128 r0)) w1) s d cf (rowBias128 r1)) w2) s d cf (rowBias64 r2)

/-- The network as a function of the edge table, the node features, the weights and the bias rows. -/
def net (r0 r1 : (⟨S1x128, .f32⟩ : BufTy).Contents (Elt F)) (r2 : (⟨S1x64, .f32⟩ : BufTy).Contents (Elt F))
    (x : (⟨S50000x128, .f32⟩ : BufTy).Contents (Elt F)) (ei : (⟨S2x800000, .i32⟩ : BufTy).Contents (Elt F))
    (w0 w1 : (⟨S128x128, .f32⟩ : BufTy).Contents (Elt F)) (w2 : (⟨S128x64, .f32⟩ : BufTy).Contents (Elt F)) :
    (⟨S50000x64, .f32⟩ : BufTy).Contents (Elt F) :=
  netWith (srcOf ei) (dstOf ei) (coefOf (srcOf ei) (dstOf ei)) r0 r1 r2 x w0 w1 w2

end Cert.KernelIdeal.Net

end
-- ==== Proof.RefNet.lean ====
/-
  The reference program's result is the three layers applied to its own three matrix products.

  The reference computes, layer by layer, the product of the node features with the layer's weights, then the
  same aggregation the kernel program applies: it rebuilds the endpoint lists, the degrees and the edge coefficients
  in every layer, from the same edge table each time, so the three copies are one value. Its biases are laid as rows
  by a broadcast along the second axis. Its result's term is therefore the network function at those bias rows.
-/
import proofs.«121771_j28501402976601_2_alg».proof.Proof.RefRun
import proofs.«121771_j28501402976601_2_alg».proof.Proof.Net

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.SL.Sem

variable {F : FTy → Type} [FloatOps F]

/-- The reference's result is the network function of its arguments, the biases laid as rows by broadcasting. -/
theorem res_eq (m : (ℓ : Loc nD τ sig) → Buf (Elt F) ℓ) (c : Dev nD) :
    Cert.ReferenceIdeal.ValueP.res_main_v134 m c
      = Cert.KernelIdeal.Net.net
          (broadcastInDim S1x128 ![1] bcast_S128_S1x128_1 (m ((c.tc : Thread nD τ).loc main_arg3)))
          (broadcastInDim S1x128 ![1] bcast_S128_S1x128_1 (m ((c.tc : Thread nD τ).loc main_arg5)))
          (broadcastInDim S1x64 ![1] bcast_S64_S1x64_1 (m ((c.tc : Thread nD τ).loc main_arg7)))
          (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg6)) := by
  unfold Cert.ReferenceIdeal.ValueP.res_main_v134
  rfl

end Cert.ReferenceIdeal.RefValue

end
-- ==== Proof.KFold.lean ====
/-
  The kernel program's result as the three layers applied to the three regions' products.

  The contents of the buffers at each boundary of the program are a fold from the launch memory. Followed from the
  end: the result is the last layer applied to region 2's output array, the two endpoint lists, the edge
  coefficients and the last bias; region 2's left operand is the second hidden layer applied to region 1's output;
  region 1's left operand is the first hidden layer applied to region 0's output; region 0 reads two arguments.
  The endpoint lists and the coefficients are computed once, before region 0, from the edge table alone, and no
  later operation or region writes them; no operation or region writes an argument. So every operand met on the
  way is either a region's output array or one of: the argument arrays, the two endpoint lists of the edge table,
  the coefficients of those lists.
-/
import proofs.«121771_j28501402976601_2_alg».proof.Proof.Gen.KernelIdeal.Frame
import proofs.«121771_j28501402976601_2_alg».proof.Proof.Net

set_option maxRecDepth 16384

noncomputable section

namespace Cert.KernelIdeal.KValue

open Cert.KernelIdeal Cert.KernelIdeal.Gen Cert.KernelIdeal.Net
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A stretch of host operations leaves a buffer none of them writes as it found it. -/
local macro "keeps" : tactic => `(tactic|
  exact StableHlo.after_of_forall_not_mem _ _ (List.forall_iff_forall_mem.mp (by
    simp only [hostOps0, hostOps0_1, hostOps0_2, hostOps1, hostOps1_1, hostOps2, hostOps2_1, hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Before region 0: the endpoint lists, the coefficients, the arguments -/

theorem W3_src : W3 m ρ c (Proc.devRef .tc main_v5) = srcOf (m ((c : Thread nD τ).loc main_arg1)) := by
  dsimp only [W3, W2, W1, W0, hostOps0, hostOps0_1, hostOps0_2]
  after_results
  rfl

theorem W3_dst : W3 m ρ c (Proc.devRef .tc main_v6) = dstOf (m ((c : Thread nD τ).loc main_arg1)) := by
  dsimp only [W3, W2, W1, W0, hostOps0, hostOps0_1, hostOps0_2]
  after_results
  rfl

set_option maxHeartbeats 4000000 in
theorem W3_coef : W3 m ρ c (Proc.devRef .tc main_v29)
    = coefOf (srcOf (m ((c : Thread nD τ).loc main_arg1))) (dstOf (m ((c : Thread nD τ).loc main_arg1))) := by
  dsimp only [W3, W2, W1, W0, hostOps0, hostOps0_1, hostOps0_2]
  after_results_simp
  rfl

/-! ## No operation and no region before it writes an argument -/

theorem W3_arg0 : W3 m ρ c (Proc.devRef .tc main_arg0) = m ((c : Thread nD τ).loc main_arg0) :=
  ((by keeps : W3 m ρ c (Proc.devRef .tc main_arg0) = W2 m ρ c (Proc.devRef .tc main_arg0)).trans
    ((by keeps : W2 m ρ c (Proc.devRef .tc main_arg0) = W1 m ρ c (Proc.devRef .tc main_arg0)).trans
    ((by keeps : W1 m ρ c (Proc.devRef .tc main_arg0) = W0 m ρ c (Proc.devRef .tc main_arg0))))).trans rfl
theorem W3_arg2 : W3 m ρ c (Proc.devRef .tc main_arg2) = m ((c : Thread nD τ).loc main_arg2) :=
  ((by keeps : W3 m ρ c (Proc.devRef .tc main_arg2) = W2 m ρ c (Proc.devRef .tc main_arg2)).trans
    ((by keeps : W2 m ρ c (Proc.devRef .tc main_arg2) = W1 m ρ c (Proc.devRef .tc main_arg2)).trans
    ((by keeps : W1 m ρ c (Proc.devRef .tc main_arg2) = W0 m ρ c (Proc.devRef .tc main_arg2))))).trans rfl
theorem W4_arg3 : W4 m ρ c (Proc.devRef .tc main_arg3) = m ((c : Thread nD τ).loc main_arg3) :=
  ((W4_of_ne m ρ c main_arg3 (by decide)).trans
    ((by keeps : W3 m ρ c (Proc.devRef .tc main_arg3) = W2 m ρ c (Proc.devRef .tc main_arg3)).trans
    ((by keeps : W2 m ρ c (Proc.devRef .tc main_arg3) = W1 m ρ c (Proc.devRef .tc main_arg3)).trans
    ((by keeps : W1 m ρ c (Proc.devRef .tc main_arg3) = W0 m ρ c (Proc.devRef .tc main_arg3)))))).trans rfl
theorem W6_arg4 : W6 m ρ c (Proc.devRef .tc main_arg4) = m ((c : Thread nD τ).loc main_arg4) :=
  ((by keeps : W6 m ρ c (Proc.devRef .tc main_arg4) = W5 m ρ c (Proc.devRef .tc main_arg4)).trans
    ((by keeps : W5 m ρ c (Proc.devRef .tc main_arg4) = W4 m ρ c (Proc.devRef .tc main_arg4)).trans
    ((W4_of_ne m ρ c main_arg4 (by decide)).trans
    ((by keeps : W3 m ρ c (Proc.devRef .tc main_arg4) = W2 m ρ c (Proc.devRef .tc main_arg4)).trans
    ((by keeps : W2 m ρ c (Proc.devRef .tc main_arg4) = W1 m ρ c (Proc.devRef .tc main_arg4)).trans
    ((by keeps : W1 m ρ c (Proc.devRef .tc main_arg4) = W0 m ρ c (Proc.devRef .tc main_arg4)))))))).trans rfl
theorem W7_arg5 : W7 m ρ c (Proc.devRef .tc main_arg5) = m ((c : Thread nD τ).loc main_arg5) :=
  ((W7_of_ne m ρ c main_arg5 (by decide)).trans
    ((by keeps : W6 m ρ c (Proc.devRef .tc main_arg5) = W5 m ρ c (Proc.devRef .tc main_arg5)).trans
    ((by keeps : W5 m ρ c (Proc.devRef .tc main_arg5) = W4 m ρ c (Proc.devRef .tc main_arg5)).trans
    ((W4_of_ne m ρ c main_arg5 (by decide)).trans
    ((by keeps : W3 m ρ c (Proc.devRef .tc main_arg5) = W2 m ρ c (Proc.devRef .tc main_arg5)).trans
    ((by keeps : W2 m ρ c (Proc.devRef .tc main_arg5) = W1 m ρ c (Proc.devRef .tc main_arg5)).trans
    ((by keeps : W1 m ρ c (Proc.devRef .tc main_arg5) = W0 m ρ c (Proc.devRef .tc main_arg5))))))))).trans rfl
theorem W9_arg6 : W9 m ρ c (Proc.devRef .tc main_arg6) = m ((c : Thread nD τ).loc main_arg6) :=
  ((by keeps : W9 m ρ c (Proc.devRef .tc main_arg6) = W8 m ρ c (Proc.devRef .tc main_arg6)).trans
    ((by keeps : W8 m ρ c (Proc.devRef .tc main_arg6) = W7 m ρ c (Proc.devRef .tc main_arg6)).trans
    ((W7_of_ne m ρ c main_arg6 (by decide)).trans
    ((by keeps : W6 m ρ c (Proc.devRef .tc main_arg6) = W5 m ρ c (Proc.devRef .tc main_arg6)).trans
    ((by keeps : W5 m ρ c (Proc.devRef .tc main_arg6) = W4 m ρ c (Proc.devRef .tc main_arg6)).trans
    ((W4_of_ne m ρ c main_arg6 (by decide)).trans
    ((by keeps : W3 m ρ c (Proc.devRef .tc main_arg6) = W2 m ρ c (Proc.devRef .tc main_arg6)).trans
    ((by keeps : W2 m ρ c (Proc.devRef .tc main_arg6) = W1 m ρ c (Proc.devRef .tc main_arg6)).trans
    ((by keeps : W1 m ρ c (Proc.devRef .tc main_arg6) = W0 m ρ c (Proc.devRef .tc main_arg6))))))))))).trans rfl
theorem W10_arg7 : W10 m ρ c (Proc.devRef .tc main_arg7) = m ((c : Thread nD τ).loc main_arg7) :=
  ((W10_of_ne m ρ c main_arg7 (by decide)).trans
    ((by keeps : W9 m ρ c (Proc.devRef .tc main_arg7) = W8 m ρ c (Proc.devRef .tc main_arg7)).trans
    ((by keeps : W8 m ρ c (Proc.devRef .tc main_arg7) = W7 m ρ c (Proc.devRef .tc main_arg7)).trans
    ((W7_of_ne m ρ c main_arg7 (by decide)).trans
    ((by keeps : W6 m ρ c (Proc.devRef .tc main_arg7) = W5 m ρ c (Proc.devRef .tc main_arg7)).trans
    ((by keeps : W5 m ρ c (Proc.devRef .tc main_arg7) = W4 m ρ c (Proc.devRef .tc main_arg7)).trans
    ((W4_of_ne m ρ c main_arg7 (by decide)).trans
    ((by keeps : W3 m ρ c (Proc.devRef .tc main_arg7) = W2 m ρ c (Proc.devRef .tc main_arg7)).trans
    ((by keeps : W2 m ρ c (Proc.devRef .tc main_arg7) = W1 m ρ c (Proc.devRef .tc main_arg7)).trans
    ((by keeps : W1 m ρ c (Proc.devRef .tc main_arg7) = W0 m ρ c (Proc.devRef .tc main_arg7)))))))))))).trans rfl

/-! ## Nothing after region 0's entry writes the endpoint lists or the coefficients -/

theorem W4_src : W4 m ρ c (Proc.devRef .tc main_v5) = srcOf (m ((c : Thread nD τ).loc main_arg1)) :=
  ((W4_of_ne m ρ c main_v5 (by decide))).trans (W3_src m ρ c)
theorem W4_dst : W4 m ρ c (Proc.devRef .tc main_v6) = dstOf (m ((c : Thread nD τ).loc main_arg1)) :=
  ((W4_of_ne m ρ c main_v6 (by decide))).trans (W3_dst m ρ c)
theorem W4_coef : W4 m ρ c (Proc.devRef .tc main_v29) = coefOf (srcOf (m ((c : Thread nD τ).loc main_arg1))) (dstOf (m ((c : Thread nD τ).loc main_arg1))) :=
  ((W4_of_ne m ρ c main_v29 (by decide))).trans (W3_coef m ρ c)
theorem W7_src : W7 m ρ c (Proc.devRef .tc main_v5) = srcOf (m ((c : Thread nD τ).loc main_arg1)) :=
  ((W7_of_ne m ρ c main_v5 (by decide)).trans
    ((by keeps : W6 m ρ c (Proc.devRef .tc main_v5) = W5 m ρ c (Proc.devRef .tc main_v5)).trans
    ((by keeps : W5 m ρ c (Proc.devRef .tc main_v5) = W4 m ρ c (Proc.devRef .tc main_v5)).trans
    ((W4_of_ne m ρ c main_v5 (by decide)))))).trans (W3_src m ρ c)
theorem W7_dst : W7 m ρ c (Proc.devRef .tc main_v6) = dstOf (m ((c : Thread nD τ).loc main_arg1)) :=
  ((W7_of_ne m ρ c main_v6 (by decide)).trans
    ((by keeps : W6 m ρ c (Proc.devRef .tc main_v6) = W5 m ρ c (Proc.devRef .tc main_v6)).trans
    ((by keeps : W5 m ρ c (Proc.devRef .tc main_v6) = W4 m ρ c (Proc.devRef .tc main_v6)).trans
    ((W4_of_ne m ρ c main_v6 (by decide)))))).trans (W3_dst m ρ c)
theorem W7_coef : W7 m ρ c (Proc.devRef .tc main_v29) = coefOf (srcOf (m ((c : Thread nD τ).loc main_arg1))) (dstOf (m ((c : Thread nD τ).loc main_arg1))) :=
  ((W7_of_ne m ρ c main_v29 (by decide)).trans
    ((by keeps : W6 m ρ c (Proc.devRef .tc main_v29) = W5 m ρ c (Proc.devRef .tc main_v29)).trans
    ((by keeps : W5 m ρ c (Proc.devRef .tc main_v29) = W4 m ρ c (Proc.devRef .tc main_v29)).trans
    ((W4_of_ne m ρ c main_v29 (by decide)))))).trans (W3_coef m ρ c)
theorem W10_src : W10 m ρ c (Proc.devRef .tc main_v5) = srcOf (m ((c : Thread nD τ).loc main_arg1)) :=
  ((W10_of_ne m ρ c main_v5 (by decide)).trans
    ((by keeps : W9 m ρ c (Proc.devRef .tc main_v5) = W8 m ρ c (Proc.devRef .tc main_v5)).trans
    ((by keeps : W8 m ρ c (Proc.devRef .tc main_v5) = W7 m ρ c (Proc.devRef .tc main_v5)).trans
    ((W7_of_ne m ρ c main_v5 (by decide)).trans
    ((by keeps : W6 m ρ c (Proc.devRef .tc main_v5) = W5 m ρ c (Proc.devRef .tc main_v5)).trans
    ((by keeps : W5 m ρ c (Proc.devRef .tc main_v5) = W4 m ρ c (Proc.devRef .tc main_v5)).trans
    ((W4_of_ne m ρ c main_v5 (by decide))))))))).trans (W3_src m ρ c)
theorem W10_dst : W10 m ρ c (Proc.devRef .tc main_v6) = dstOf (m ((c : Thread nD τ).loc main_arg1)) :=
  ((W10_of_ne m ρ c main_v6 (by decide)).trans
    ((by keeps : W9 m ρ c (Proc.devRef .tc main_v6) = W8 m ρ c (Proc.devRef .tc main_v6)).trans
    ((by keeps : W8 m ρ c (Proc.devRef .tc main_v6) = W7 m ρ c (Proc.devRef .tc main_v6)).trans
    ((W7_of_ne m ρ c main_v6 (by decide)).trans
    ((by keeps : W6 m ρ c (Proc.devRef .tc main_v6) = W5 m ρ c (Proc.devRef .tc main_v6)).trans
    ((by keeps : W5 m ρ c (Proc.devRef .tc main_v6) = W4 m ρ c (Proc.devRef .tc main_v6)).trans
    ((W4_of_ne m ρ c main_v6 (by decide))))))))).trans (W3_dst m ρ c)
theorem W10_coef : W10 m ρ c (Proc.devRef .tc main_v29) = coefOf (srcOf (m ((c : Thread nD τ).loc main_arg1))) (dstOf (m ((c : Thread nD τ).loc main_arg1))) :=
  ((W10_of_ne m ρ c main_v29 (by decide)).trans
    ((by keeps : W9 m ρ c (Proc.devRef .tc main_v29) = W8 m ρ c (Proc.devRef .tc main_v29)).trans
    ((by keeps : W8 m ρ c (Proc.devRef .tc main_v29) = W7 m ρ c (Proc.devRef .tc main_v29)).trans
    ((W7_of_ne m ρ c main_v29 (by decide)).trans
    ((by keeps : W6 m ρ c (Proc.devRef .tc main_v29) = W5 m ρ c (Proc.devRef .tc main_v29)).trans
    ((by keeps : W5 m ρ c (Proc.devRef .tc main_v29) = W4 m ρ c (Proc.devRef .tc main_v29)).trans
    ((W4_of_ne m ρ c main_v29 (by decide))))))))).trans (W3_coef m ρ c)

/-! ## The layers -/

set_option maxHeartbeats 4000000 in
/-- Region 1's left operand: the first hidden layer of region 0's output. -/
theorem W6_hidden : W6 m ρ c (Proc.devRef .tc main_v47)
    = hiddenLayer (W4 m ρ c (Proc.devRef .tc main_v30)) (srcOf (m ((c : Thread nD τ).loc main_arg1))) (dstOf (m ((c : Thread nD τ).loc main_arg1))) (coefOf (srcOf (m ((c : Thread nD τ).loc main_arg1))) (dstOf (m ((c : Thread nD τ).loc main_arg1))))
        (rowBias128 (shapeCast S1x128 (m ((c : Thread nD τ).loc main_arg3)) shapeCasts_S128_S1x128)) := by
  have h : W6 m ρ c (Proc.devRef .tc main_v47)
      = hiddenLayer (W4 m ρ c (Proc.devRef .tc main_v30)) (W4 m ρ c (Proc.devRef .tc main_v5)) (W4 m ρ c (Proc.devRef .tc main_v6))
          (W4 m ρ c (Proc.devRef .tc main_v29)) (rowBias128 (shapeCast S1x128 (W4 m ρ c (Proc.devRef .tc main_arg3)) shapeCasts_S128_S1x128)) := by
    dsimp only [W6, W5, hostOps1, hostOps1_1]
    after_results_simp
    rfl
  rw [h, W4_src m ρ c, W4_dst m ρ c, W4_coef m ρ c, W4_arg3 m ρ c]

set_option maxHeartbeats 4000000 in
/-- Region 2's left operand: the second hidden layer of region 1's output. -/
theorem W9_hidden : W9 m ρ c (Proc.devRef .tc main_v65)
    = hiddenLayer (W7 m ρ c (Proc.devRef .tc main_v48)) (srcOf (m ((c : Thread nD τ).loc main_arg1))) (dstOf (m ((c : Thread nD τ).loc main_arg1))) (coefOf (srcOf (m ((c : Thread nD τ).loc main_arg1))) (dstOf (m ((c : Thread nD τ).loc main_arg1))))
        (rowBias128 (shapeCast S1x128 (m ((c : Thread nD τ).loc main_arg5)) shapeCasts_S128_S1x128)) := by
  have h : W9 m ρ c (Proc.devRef .tc main_v65)
      = hiddenLayer (W7 m ρ c (Proc.devRef .tc main_v48)) (W7 m ρ c (Proc.devRef .tc main_v5)) (W7 m ρ c (Proc.devRef .tc main_v6))
          (W7 m ρ c (Proc.devRef .tc main_v29)) (rowBias128 (shapeCast S1x128 (W7 m ρ c (Proc.devRef .tc main_arg5)) shapeCasts_S128_S1x128)) := by
    dsimp only [W9, W8, hostOps2, hostOps2_1]
    after_results_simp
    rfl
  rw [h, W7_src m ρ c, W7_dst m ρ c, W7_coef m ρ c, W7_arg5 m ρ c]

set_option maxHeartbeats 4000000 in
/-- The result: the last layer of region 2's output. -/
theorem W11_last : W11 m ρ c (Proc.devRef .tc main_v82)
    = lastLayer (W10 m ρ c (Proc.devRef .tc main_v66)) (srcOf (m ((c : Thread nD τ).loc main_arg1))) (dstOf (m ((c : Thread nD τ).loc main_arg1))) (coefOf (srcOf (m ((c : Thread nD τ).loc main_arg1))) (dstOf (m ((c : Thread nD τ).loc main_arg1))))
        (rowBias64 (shapeCast S1x64 (m ((c : Thread nD τ).loc main_arg7)) shapeCasts_S64_S1x64)) := by
  have h : W11 m ρ c (Proc.devRef .tc main_v82)
      = lastLayer (W10 m ρ c (Proc.devRef .tc main_v66)) (W10 m ρ c (Proc.devRef .tc main_v5)) (W10 m ρ c (Proc.devRef .tc main_v6))
          (W10 m ρ c (Proc.devRef .tc main_v29)) (rowBias64 (shapeCast S1x64 (W10 m ρ c (Proc.devRef .tc main_arg7)) shapeCasts_S64_S1x64)) := by
    dsimp only [W11, hostOps3]
    after_results_simp
    rfl
  rw [h, W10_src m ρ c, W10_dst m ρ c, W10_coef m ρ c, W10_arg7 m ρ c]

end Cert.KernelIdeal.KValue

end
-- ==== Proof.KRun.lean ====
/-
  The kernel program's run with its result named.

  The program is three matrix-product regions among stretches of host operations. Its run is the chain of
  those segments; the contents of every buffer at each boundary are a fold from the launch memory: a host
  stretch applies its operations to the contents before it, a region replaces its arrays by what its
  write-backs leave and keeps every other buffer. The run ends with every unscoped buffer at the last
  boundary's contents. Read at the result buffer this names the program's result; read at an argument it
  gives the launch contents back, since nothing writes an argument.
-/
import proofs.«121771_j28501402976601_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    last boundary's contents and every argument as launched. -/
theorem run_value : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KValue

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.MatMul.lean ====
/-
  The three row-blocked matrix products of the kernel program, as whole products.

  Each of the three regions computes `x · W` for `x : [50000, 128]` and `W : [128, 128]` (the last one `[128, 64]`) in ten
  steps: step `t` takes rows `5000·t … 5000·t + 4999` of `x` and the whole of `W`, rounds both to bf16 (at the ideal values
  rounding changes nothing), multiplies them into a zero accumulator, and writes the `[5000, ·]` result as block `t` of the
  output. Entry `(p, q)` of that block is the sum over `k` of `x(5000·t + p, k) · W(k, q)`, which is entry `(5000·t + p, q)` of
  the whole product; row `r` of the output lies in block `r / 5000`, so the ten blocks fill the output and the output array
  ends holding the whole product of the two operands as the region found them.
-/
import proofs.«121771_j28501402976601_2_alg».proof.Proof.Gen.KernelIdeal.Frame
import proofs.«121771_j28501402976601_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## What the three regions share -/

/-- The zero offsets of a whole-buffer access, however spelt. -/
theorem offsets_zero : (![0, 0] : Fin 2 → Nat) = fun _ => 0 := funext fun a => by fin_cases a <;> rfl

/-- The body's contraction "axis 1 of the left operand against axis 0 of the right one, no batch axis" is the plain product. -/
theorem dot128_plain : dot_S5000x128_S128x128_S5000x128_1_0_0_1_n_n = DotDims.plain 5000 128 128 := rfl
theorem dot64_plain : dot_S5000x128_S128x64_S5000x64_1_0_0_1_n_n = DotDims.plain 5000 128 64 := rfl

/-- A block of rows of a product is the product of that block of rows: for `x0` rows `5000·T … 5000·T + 4999` of `l` and
    `x1 = r`, the entry `(p, q)` of `x0 · x1` (both operands first rounded to bf16, which at the ideal values changes nothing)
    and the entry `(5000·T + p, q)` of `l · r` are the same sum over `k` of `l(5000·T + p, k) · r(k, q)`. -/
theorem rows_of_product {W : Nat} (x0 : FVec Ideal ⟨2, ![5000, 128]⟩ .f32) (x1 : FVec Ideal ⟨2, ![128, W]⟩ .f32)
    (l : FVec Ideal ⟨2, ![50000, 128]⟩ .f32) (r : FVec Ideal ⟨2, ![128, W]⟩ .f32) (T : Nat) (hT : T < 10)
    (hl : ∀ (p : Fin 5000) (k : Fin 128), x0 (ix2 p k) = l (ix2 (⟨5000 * T + p.val, by omega⟩ : Fin 50000) k))
    (hr : ∀ (k : Fin 128) (q : Fin W), x1 (ix2 k q) = r (ix2 k q)) (p : Fin 5000) (q : Fin W) :
    matmul (F := Ideal) (DotDims.plain 5000 128 W) none (truncf .bf16 x0 bitsLt_bf16_f32) (truncf .bf16 x1 bitsLt_bf16_f32)
        (constant ⟨2, ![5000, W]⟩ .f32 0x00000000#32) (ix2 p q)
      = Host.dotGeneral (F := Ideal) (φ₁ := .f32) (φ₂ := .f32) (DotDims.plain 50000 128 W) none l r (ix2 (⟨5000 * T + p.val, by omega⟩ : Fin 50000) q) := by
  refine (Cert.MatOps.matmul_plain_zero_apply none (truncf .bf16 x0 bitsLt_bf16_f32) (truncf .bf16 x1 bitsLt_bf16_f32) p q).trans ?_
  refine Eq.trans ?_ (Cert.MatOps.dotGeneral_plain_apply none l r (⟨5000 * T + p.val, by omega⟩ : Fin 50000) q).symm
  refine Finset.sum_congr rfl fun k _ => ?_
  show x0 (ix2 p k) * x1 (ix2 k q) = _
  rw [hl, hr]

variable (V : (c : Dev nD) → (b : Ref sig .tc) → Buf (Elt Ideal) ((c : Thread nD τ).loc b))

/-! ## Region 0: `main_v30 = main_arg0 · main_arg2`, computed in ten blocks of 5000 rows -/

/-- The three index maps over the grid: at point `t` the left operand's and the result's block is block `t` along the rows
    (and the only block along the columns); the right operand's block is always its one block. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000·t … 5000·t + 4999` of the left operand. -/
theorem left_block0 (c : Dev nD) (t : Fin cfg0.N) (y : S5000x128.Idx) (i : S50000x128.Idx)
    (h0 : (i 0).val = 5000 * t.val + (y 0).val) (h1 : (i 1).val = (y 1).val) :
    (iblk0 (F := Ideal) V c 0 t : Vec Ideal S5000x128 .f32) y = (V c main_arg0 : S50000x128.Idx → Elt Ideal .f32) i := by
  obtain ⟨e0, e1, -⟩ := index_maps0 t
  show V c main_arg0 (((cfg0.win 0).blk t).view.emb y) = V c main_arg0 i
  congr 1
  funext a; apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The right operand's block at every point is the whole right operand. -/
theorem right_block0 (c : Dev nD) (t : Fin cfg0.N) (y : S128x128.Idx) :
    (iblk0 (F := Ideal) V c 1 t : Vec Ideal S128x128 .f32) y = (V c main_arg2 : S128x128.Idx → Elt Ideal .f32) y := by
  obtain ⟨-, -, e2, e3, -⟩ := index_maps0 t
  show V c main_arg2 (((cfg0.win 1).blk t).view.emb y) = V c main_arg2 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the body computes from a block `x0` of 5000 rows and the right operand `x1`, at `(p, q)`: when `x0` is rows
    `5000·T …` of `l` and `x1` is `r`, it is the entry `(5000·T + p, q)` of the whole product `l · r`. -/
theorem entry0 (x0 : Vec Ideal S5000x128 .f32) (x1 : Vec Ideal S128x128 .f32)
    (l : FVec Ideal ⟨2, ![50000, 128]⟩ .f32) (r : FVec Ideal ⟨2, ![128, 128]⟩ .f32) (T : Nat) (hT : T < 10)
    (hl : ∀ (p : Fin 5000) (k : Fin 128), x0 (ix2 p k) = l (ix2 (⟨5000 * T + p.val, by omega⟩ : Fin 50000) k))
    (hr : ∀ (k : Fin 128) (q : Fin 128), x1 (ix2 k q) = r (ix2 k q)) (p : Fin 5000) (q : Fin 128) :
    k0_pay1 (F := Ideal) x0 x1 (ix2 p q)
      = Host.dotGeneral (F := Ideal) (φ₁ := .f32) (φ₂ := .f32) (DotDims.plain 50000 128 128) none l r (ix2 (⟨5000 * T + p.val, by omega⟩ : Fin 50000) q) := by
  unfold k0_pay1
  rw [dot128_plain]
  exact rows_of_product x0 x1 l r T hT hl hr p q

/-- What point `t` writes back is block `t` (rows `5000·t …`) of the whole product. -/
theorem written_block0 (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 50000 128 128) none (V c main_arg0) (V c main_arg2)) := by
  have hN : cfg0.N = 10 := N_0
  have ht : t.val < 10 := by have := t.isLt; omega
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x128) offsets_zero]
  funext y
  obtain ⟨p, q, rfl⟩ : ∃ (p : Fin 5000) (q : Fin 128), y = ix2 p q := ⟨y 0, y 1, eq_ix2 y⟩
  obtain ⟨-, -, -, -, e4, e5⟩ := index_maps0 t
  have hemb : ((cfg0.win 2).blk t).view.emb (ix2 p q) = (ix2 (⟨5000 * t.val + p.val, by omega⟩ : Fin 50000) q : S50000x128.Idx) := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  show k0_pay1 (F := Ideal) (iblk0 V c 0 t) (iblk0 V c 1 t) (ix2 p q) = Host.dotGeneral (F := Ideal) (φ₁ := .f32) (φ₂ := .f32) (DotDims.plain 50000 128 128) none (V c main_arg0) (V c main_arg2) (((cfg0.win 2).blk t).view.emb (ix2 p q))
  rw [hemb]
  exact entry0 (iblk0 V c 0 t) (iblk0 V c 1 t) (V c main_arg0) (V c main_arg2) t.val ht
    (fun p k => left_block0 V c t (ix2 p k) _ rfl rfl) (fun k q => right_block0 V c t (ix2 k q)) p q

/-- An index of the result is in point `t`'s block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks fill the result: row `r` is in the block of point `r / 5000`. -/
theorem rows_covered0 (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  refine ⟨t, flush0_2 t, ?_⟩
  rw [mem_block0]
  obtain ⟨-, -, -, -, e4, e5⟩ := index_maps0 t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the whole product of the two operands as the region found them. -/
theorem arr0 (c : Dev nD) :
    (dat0 (F := Ideal) V c).arrAt 2 cfg0.N
      = Host.dotGeneral (F := Ideal) (φ₁ := .f32) (φ₂ := .f32) (DotDims.plain 50000 128 128) none (V c main_arg0) (V c main_arg2) :=
  (dat0 (F := Ideal) V c).arrAt_eq_of_cover 2 _ (fun t _ => written_block0 V c t) rows_covered0

/-! ## Region 1: `main_v48 = main_v47 · main_arg4`, computed in ten blocks of 5000 rows -/

/-- The three index maps over the grid: at point `t` the left operand's and the result's block is block `t` along the rows
    (and the only block along the columns); the right operand's block is always its one block. -/
theorem index_maps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `5000·t … 5000·t + 4999` of the left operand. -/
theorem left_block1 (c : Dev nD) (t : Fin cfg1.N) (y : S5000x128.Idx) (i : S50000x128.Idx)
    (h0 : (i 0).val = 5000 * t.val + (y 0).val) (h1 : (i 1).val = (y 1).val) :
    (iblk1 (F := Ideal) V c 0 t : Vec Ideal S5000x128 .f32) y = (V c main_v47 : S50000x128.Idx → Elt Ideal .f32) i := by
  obtain ⟨e0, e1, -⟩ := index_maps1 t
  show V c main_v47 (((cfg1.win 0).blk t).view.emb y) = V c main_v47 i
  congr 1
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The right operand's block at every point is the whole right operand. -/
theorem right_block1 (c : Dev nD) (t : Fin cfg1.N) (y : S128x128.Idx) :
    (iblk1 (F := Ideal) V c 1 t : Vec Ideal S128x128 .f32) y = (V c main_arg4 : S128x128.Idx → Elt Ideal .f32) y := by
  obtain ⟨-, -, e2, e3, -⟩ := index_maps1 t
  show V c main_arg4 (((cfg1.win 1).blk t).view.emb y) = V c main_arg4 y
  congr 1
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What the body computes from a block `x0` of 5000 rows and the right operand `x1`, at `(p, q)`: when `x0` is rows
    `5000·T …` of `l` and `x1` is `r`, it is the entry `(5000·T + p, q)` of the whole product `l · r`. -/
theorem entry1 (x0 : Vec Ideal S5000x128 .f32) (x1 : Vec Ideal S128x128 .f32)
    (l : FVec Ideal ⟨2, ![50000, 128]⟩ .f32) (r : FVec Ideal ⟨2, ![128, 128]⟩ .f32) (T : Nat) (hT : T < 10)
    (hl : ∀ (p : Fin 5000) (k : Fin 128), x0 (ix2 p k) = l (ix2 (⟨5000 * T + p.val, by omega⟩ : Fin 50000) k))
    (hr : ∀ (k : Fin 128) (q : Fin 128), x1 (ix2 k q) = r (ix2 k q)) (p : Fin 5000) (q : Fin 128) :
    k1_pay1 (F := Ideal) x0 x1 (ix2 p q)
      = Host.dotGeneral (F := Ideal) (φ₁ := .f32) (φ₂ := .f32) (DotDims.plain 50000 128 128) none l r (ix2 (⟨5000 * T + p.val, by omega⟩ : Fin 50000) q) := by
  unfold k1_pay1
  rw [dot128_plain, shapeCast_self]
  exact rows_of_product x0 x1 l r T hT hl hr p q

/-- What point `t` writes back is block `t` (rows `5000·t …`) of the whole product. -/
theorem written_block1 (c : Dev nD) (t : Fin cfg1.N) :
    (dat1 (F := Ideal) V c).flushed 2 t = ((cfg1.win 2).blk t).view.read (Elt Ideal)
      (Host.dotGeneral (F := Ideal) (φ₁ := .f32) (φ₂ := .f32) (DotDims.plain 50000 128 128) none (V c main_v47) (V c main_arg4)) := by
  have hN : cfg1.N = 10 := N_1
  have ht : t.val < 10 := by have := t.isLt; omega
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S128x128) offsets_zero]
  funext y
  obtain ⟨p, q, rfl⟩ : ∃ (p : Fin 5000) (q : Fin 128), y = ix2 p q := ⟨y 0, y 1, eq_ix2 y⟩
  obtain ⟨-, -, -, -, e4, e5⟩ := index_maps1 t
  have hemb : ((cfg1.win 2).blk t).view.emb (ix2 p q) = (ix2 (⟨5000 * t.val + p.val, by omega⟩ : Fin 50000) q : S50000x128.Idx) := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * q.val = q.val; omega
  show k1_pay1 (F := Ideal) (iblk1 V c 0 t) (iblk1 V c 1 t) (ix2 p q) = Host.dotGeneral (F := Ideal) (φ₁ := .f32) (φ₂ := .f32) (DotDims.plain 50000 128 128) none (V c main_v47) (V c main_arg4) (((cfg1.win 2).blk t).view.emb (ix2 p q))
  rw [hemb]
  exact entry1 (iblk1 V c 0 t) (iblk1 V c 1 t) (V c main_v47) (V c main_arg4) t.val ht
    (fun p k => left_block1 V c t (ix2 p k) _ rfl rfl) (fun k q => right_block1 V c t (ix2 k q)) p q

/-- An index of the result is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- The ten blocks fill the result: row `r` is in the block of point `r / 5000`. -/
theorem rows_covered1 (i : S50000x128.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  refine ⟨t, flush1_2 t, ?_⟩
  rw [mem_block1]
  obtain ⟨-, -, -, -, e4, e5⟩ := index_maps1 t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the result array is the whole product of the two operands as the region found them. -/
theorem arr1 (c : Dev nD) :
    (dat1 (F := Ideal) V c).arrAt 2 cfg1.N
      = Host.dotGeneral (F := Ideal) (φ₁ := .f32) (φ₂ := .f32) (DotDims.plain 50000 128 128) none (V c main_v47) (V c main_arg4) :=
  (dat1 (F := Ideal) V c).arrAt_eq_of_cover 2 _ (fun t _ => written_block1 V c t) rows_covered1

/-! ## Region 2: `main_v66 = main_v65 · main_arg6`, computed in ten blocks of 5000 rows -/

/-- The three index maps over the grid: at point `t` the left operand's and the result's block is block `t` along the rows
    (and the only block along the columns); the right operand's block is always its one block. -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `5000·t … 5000·t + 4999` of the left operand. -/
theorem left_block2 (c : Dev nD) (t : Fin cfg2.N) (y : S5000x128.Idx) (i : S50000x128.Idx)
    (h0 : (i 0).val = 5000 * t.val + (y 0).val) (h1 : (i 1).val = (y 1).val) :
    (iblk2 (F := Ideal) V c 0 t : Vec Ideal S5000x128 .f32) y = (V c main_v65 : S50000x128.Idx → Elt Ideal .f32) i := by
  obtain ⟨e0, e1, -⟩ := index_maps2 t
  show V c main_v65 (((cfg2.win 0).blk t).view.emb y) = V c main_v65 i
  congr 1
  funext a; apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The right operand's block at every point is the whole right operand. -/
theorem right_block2 (c : Dev nD) (t : Fin cfg2.N) (y : S128x64.Idx) :
    (iblk2 (F := Ideal) V c 1 t : Vec Ideal S128x64 .f32) y = (V c main_arg6 : S128x64.Idx → Elt Ideal .f32) y := by
  obtain ⟨-, -, e2, e3, -⟩ := index_maps2 t
  show V c main_arg6 (((cfg2.win 1).blk t).view.emb y) = V c main_arg6 y
  congr 1
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- What the body computes from a block `x0` of 5000 rows and the right operand `x1`, at `(p, q)`: when `x0` is rows
    `5000·T …` of `l` and `x1` is `r`, it is the entry `(5000·T + p, q)` of the whole product `l · r`. -/
theorem entry2 (x0 : Vec Ideal S5000x128 .f32) (x1 : Vec Ideal S128x64 .f32)
    (l : FVec Ideal ⟨2, ![50000, 128]⟩ .f32) (r : FVec Ideal ⟨2, ![128, 64]⟩ .f32) (T : Nat) (hT : T < 10)
    (hl : ∀ (p : Fin 5000) (k : Fin 128), x0 (ix2 p k) = l (ix2 (⟨5000 * T + p.val, by omega⟩ : Fin 50000) k))
    (hr : ∀ (k : Fin 128) (q : Fin 64), x1 (ix2 k q) = r (ix2 k q)) (p : Fin 5000) (q : Fin 64) :
    k2_pay1 (F := Ideal) x0 x1 (ix2 p q)
      = Host.dotGeneral (F := Ideal) (φ₁ := .f32) (φ₂ := .f32) (DotDims.plain 50000 128 64) none l r (ix2 (⟨5000 * T + p.val, by omega⟩ : Fin 50000) q) := by
  unfold k2_pay1
  rw [dot64_plain, shapeCast_self]
  exact rows_of_product x0 x1 l r T hT hl hr p q

/-- What point `t` writes back is block `t` (rows `5000·t …`) of the whole product. -/
theorem written_block2 (c : Dev nD) (t : Fin cfg2.N) :
    (dat2 (F := Ideal) V c).flushed 2 t = ((cfg2.win 2).blk t).view.read (Elt Ideal)
      (Host.dotGeneral (F := Ideal) (φ₁ := .f32) (φ₂ := .f32) (DotDims.plain 50000 128 64) none (V c main_v65) (V c main_arg6)) := by
  have hN : cfg2.N = 10 := N_2
  have ht : t.val < 10 := by have := t.isLt; omega
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x64) offsets_zero]
  funext y
  obtain ⟨p, q, rfl⟩ : ∃ (p : Fin 5000) (q : Fin 64), y = ix2 p q := ⟨y 0, y 1, eq_ix2 y⟩
  obtain ⟨-, -, -, -, e4, e5⟩ := index_maps2 t
  have hemb : ((cfg2.win 2).blk t).view.emb (ix2 p q) = (ix2 (⟨5000 * t.val + p.val, by omega⟩ : Fin 50000) q : S50000x64.Idx) := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * q.val = q.val; omega
  show k2_pay1 (F := Ideal) (iblk2 V c 0 t) (iblk2 V c 1 t) (ix2 p q) = Host.dotGeneral (F := Ideal) (φ₁ := .f32) (φ₂ := .f32) (DotDims.plain 50000 128 64) none (V c main_v65) (V c main_arg6) (((cfg2.win 2).blk t).view.emb (ix2 p q))
  rw [hemb]
  exact entry2 (iblk2 V c 0 t) (iblk2 V c 1 t) (V c main_v65) (V c main_arg6) t.val ht
    (fun p k => left_block2 V c t (ix2 p k) _ rfl rfl) (fun k q => right_block2 V c t (ix2 k q)) p q

/-- An index of the result is in point `t`'s block iff each coordinate is in the block's range on its axis. -/
theorem mem_block2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v66).slice (win2_2.rect t)).set ↔ _
  rw [View.set_slice_whole, Rect.mem_set_unit]
  exact Iff.rfl

/-- The ten blocks fill the result: row `r` is in the block of point `r / 5000`. -/
theorem rows_covered2 (i : S50000x64.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [hN]; omega⟩, rfl⟩
  refine ⟨t, flush2_2 t, ?_⟩
  rw [mem_block2]
  obtain ⟨-, -, -, -, e4, e5⟩ := index_maps2 t
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the result array is the whole product of the two operands as the region found them. -/
theorem arr2 (c : Dev nD) :
    (dat2 (F := Ideal) V c).arrAt 2 cfg2.N
      = Host.dotGeneral (F := Ideal) (φ₁ := .f32) (φ₂ := .f32) (DotDims.plain 50000 128 64) none (V c main_v65) (V c main_arg6) :=
  (dat2 (F := Ideal) V c).arrAt_eq_of_cover 2 _ (fun t _ => written_block2 V c t) rows_covered2

end Cert.KernelIdeal.KValue

end
-- ==== Proof.KNet.lean ====
/-
  The kernel program's result, on the extended reals, is the network function of its arguments.

  On the extended reals each region's output array is the plain matrix product of its two operand arrays as the
  region finds them: every block of rows of the product depends on the same block of rows of the left operand and
  on the whole right operand, and the blocks fill the array. Put into the chain of layers, the result is the three
  layers applied in turn, each to the product of the previous layer's output with the layer's weights, with the
  biases laid as rows by a reshape.
-/
import proofs.«121771_j28501402976601_2_alg».proof.Proof.KFold
import proofs.«121771_j28501402976601_2_alg».proof.Proof.KRun
import proofs.«121771_j28501402976601_2_alg».proof.Proof.MatMul

set_option maxRecDepth 16384

noncomputable section

namespace Cert.KernelIdeal.KValue

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Region 0's output: the node features times the first weights. -/
theorem W4_prod : W4 m ρ c (Proc.devRef .tc main_v30) = dot128 (m ((c : Thread nD τ).loc main_arg0)) (m ((c : Thread nD τ).loc main_arg2)) := by
  refine (W4_arr m ρ c 2).trans ((arr0 (V3 m ρ) c).trans ?_)
  show Host.dotGeneral (F := Ideal) (DotDims.plain 50000 128 128) none (W3 m ρ c (Proc.devRef .tc main_arg0)) (W3 m ρ c (Proc.devRef .tc main_arg2)) = _
  rw [W3_arg0 m ρ c, W3_arg2 m ρ c]
  rfl

/-- Region 1's output: the first hidden layer times the second weights. -/
theorem W7_prod : W7 m ρ c (Proc.devRef .tc main_v48) = dot128 (hiddenLayer (dot128 (m ((c : Thread nD τ).loc main_arg0)) (m ((c : Thread nD τ).loc main_arg2))) (srcOf (m ((c : Thread nD τ).loc main_arg1))) (dstOf (m ((c : Thread nD τ).loc main_arg1))) (coefOf (srcOf (m ((c : Thread nD τ).loc main_arg1))) (dstOf (m ((c : Thread nD τ).loc main_arg1)))) (rowBias128 (shapeCast S1x128 (m ((c : Thread nD τ).loc main_arg3)) shapeCasts_S128_S1x128))) (m ((c : Thread nD τ).loc main_arg4)) := by
  refine (W7_arr m ρ c 2).trans ((arr1 (V6 m ρ) c).trans ?_)
  show Host.dotGeneral (F := Ideal) (DotDims.plain 50000 128 128) none (W6 m ρ c (Proc.devRef .tc main_v47)) (W6 m ρ c (Proc.devRef .tc main_arg4)) = _
  rw [W6_hidden m ρ c, W6_arg4 m ρ c, W4_prod m ρ c]
  rfl

/-- Region 2's output: the second hidden layer times the last weights. -/
theorem W10_prod : W10 m ρ c (Proc.devRef .tc main_v66) = dot64 (hiddenLayer (dot128 (hiddenLayer (dot128 (m ((c : Thread nD τ).loc main_arg0)) (m ((c : Thread nD τ).loc main_arg2))) (srcOf (m ((c : Thread nD τ).loc main_arg1))) (dstOf (m ((c : Thread nD τ).loc main_arg1))) (coefOf (srcOf (m ((c : Thread nD τ).loc main_arg1))) (dstOf (m ((c : Thread nD τ).loc main_arg1)))) (rowBias128 (shapeCast S1x128 (m ((c : Thread nD τ).loc main_arg3)) shapeCasts_S128_S1x128))) (m ((c : Thread nD τ).loc main_arg4))) (srcOf (m ((c : Thread nD τ).loc main_arg1))) (dstOf (m ((c : Thread nD τ).loc main_arg1))) (coefOf (srcOf (m ((c : Thread nD τ).loc main_arg1))) (dstOf (m ((c : Thread nD τ).loc main_arg1)))) (rowBias128 (shapeCast S1x128 (m ((c : Thread nD τ).loc main_arg5)) shapeCasts_S128_S1x128))) (m ((c : Thread nD τ).loc main_arg6)) := by
  refine (W10_arr m ρ c 2).trans ((arr2 (V9 m ρ) c).trans ?_)
  show Host.dotGeneral (F := Ideal) (DotDims.plain 50000 128 64) none (W9 m ρ c (Proc.devRef .tc main_v65)) (W9 m ρ c (Proc.devRef .tc main_arg6)) = _
  rw [W9_hidden m ρ c, W9_arg6 m ρ c, W7_prod m ρ c]
  rfl

/-- The result is the network function of the arguments, the biases laid as rows by a reshape. -/
theorem W11_net : W11 m ρ c (Proc.devRef .tc main_v82)
    = net (shapeCast S1x128 (m ((c : Thread nD τ).loc main_arg3)) shapeCasts_S128_S1x128) (shapeCast S1x128 (m ((c : Thread nD τ).loc main_arg5)) shapeCasts_S128_S1x128)
        (shapeCast S1x64 (m ((c : Thread nD τ).loc main_arg7)) shapeCasts_S64_S1x64)
        (m ((c : Thread nD τ).loc main_arg0)) (m ((c : Thread nD τ).loc main_arg1)) (m ((c : Thread nD τ).loc main_arg2)) (m ((c : Thread nD τ).loc main_arg4)) (m ((c : Thread nD τ).loc main_arg6)) := by
  rw [W11_last m ρ c, W10_prod m ρ c]
  rfl

/-- Every weakly fair execution of the kernel program on the extended reals terminates, nothing faulting, with the
    result at the network function of the arguments and every argument as launched. -/
theorem run_net : θ_run defs (onTc (τ := τ) (main (F := Ideal))) ⟨m, fun _ => 0, ρ⟩ (fun r => ∀ c : Dev nD,
      r.2.mem ((c.tc : Thread nD τ).loc main_v82)
        = net (shapeCast S1x128 (m ((c : Thread nD τ).loc main_arg3)) shapeCasts_S128_S1x128) (shapeCast S1x128 (m ((c : Thread nD τ).loc main_arg5)) shapeCasts_S128_S1x128)
            (shapeCast S1x64 (m ((c : Thread nD τ).loc main_arg7)) shapeCasts_S64_S1x64)
            (m ((c : Thread nD τ).loc main_arg0)) (m ((c : Thread nD τ).loc main_arg1)) (m ((c : Thread nD τ).loc main_arg2)) (m ((c : Thread nD τ).loc main_arg4)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W11_net m ρ c), (h c).2⟩) (run_value m ρ)

end Cert.KernelIdeal.KValue

end
-- ==== Proof.LibRowVector.lean ====
/-
  A vector laid as a row.

  A vector of length `a` becomes the one row of a `[1, a]` array in two ways: by reading the vector's entries in
  row-major order at the new shape, or by broadcasting it along the second axis. Both arrays have at `(0, i)` the
  vector's entry `i`, so they are the same array.
-/
import Idealize.ShloMosaic.Lib.Pipeline.Value
import Idealize.ShloMosaic.Lib.ValueIdx
import Idealize.ShloMosaic.Lib.ValueLayout

namespace Cert.Lib.RowVector

open Idealize.ShloMosaic Idealize.ShloMosaic.ValueIdx

/-- The reshape of a vector to one row is its broadcast along the second axis. -/
theorem shapeCast_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) (fun ax => ?_)).symm
  match ax with
  | ⟨0, _⟩ =>
    show i.val = if a = 1 then 0 else i.val
    split
    · have := i.isLt; omega
    · rfl

end Cert.Lib.RowVector
-- ==== Proof.lean ====
/-
  The kernel program and its reference compute the same three-layer graph convolution on the extended reals.

  Both programs build, from the edge table, the endpoint lists with a self-edge per node, the node degrees, the
  inverse square roots of the positive degrees and from them a coefficient per edge; a layer multiplies the node
  features by the layer's weights, gathers the product's row at each edge's source, scales it by the edge's
  coefficient, sums the scaled rows into the destinations and adds the bias; the two hidden layers are clamped at
  zero. The kernel program computes the three products in tiled regions, rows 5000 at a time, the whole weight matrix
  resident, and builds the coefficients once; the reference uses one whole matrix product per layer and rebuilds the
  coefficients in every layer from the same edge table. On the extended reals a format change is the identity and a
  tiled product is the whole product, block of rows by block of rows, so both results are one function of the
  arguments: the same chain of whole-array operations, fed the same products. The only other difference is how a
  bias vector is laid as a row (a reshape against a broadcast), and the two rows are the same array. No law of
  arithmetic is used, so the finiteness of the inputs is never opened.
-/
import proofs.«121771_j28501402976601_2_alg».proof.Defs
import proofs.«121771_j28501402976601_2_alg».proof.Proof.Gen.Kernel
import proofs.«121771_j28501402976601_2_alg».proof.Proof.Gen.Kernel.Frame
import proofs.«121771_j28501402976601_2_alg».proof.Proof.Gen.KernelIdeal
import proofs.«121771_j28501402976601_2_alg».proof.Proof.Gen.KernelIdeal.Frame
import proofs.«121771_j28501402976601_2_alg».proof.Proof.Gen.ReferenceIdeal
import proofs.«121771_j28501402976601_2_alg».proof.Proof.Gen.Pre_finite_inputs
import proofs.«121771_j28501402976601_2_alg».proof.Proof.RefRun
import proofs.«121771_j28501402976601_2_alg».proof.Proof.RefNet
import proofs.«121771_j28501402976601_2_alg».proof.Proof.KNet
import proofs.«121771_j28501402976601_2_alg».proof.Proof.LibRowVector

noncomputable section

namespace Cert.Proof

open Idealize.ShloMosaic Idealize.ShloMosaic.TcCoe Idealize.SL.Sem

/-- The bit-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- A bias vector reshaped to a row is the vector broadcast along the row. -/
theorem row128 (b : (⟨Cert.KernelIdeal.S128, .f32⟩ : BufTy).Contents (Elt Ideal)) :
    shapeCast Cert.KernelIdeal.S1x128 b Cert.KernelIdeal.Gen.shapeCasts_S128_S1x128
      = broadcastInDim Cert.ReferenceIdeal.S1x128 ![1] Cert.ReferenceIdeal.Gen.bcast_S128_S1x128_1 b :=
  Cert.Lib.RowVector.shapeCast_eq_broadcastInDim _ _ _

theorem row64 (b : (⟨Cert.KernelIdeal.S64, .f32⟩ : BufTy).Contents (Elt Ideal)) :
    shapeCast Cert.KernelIdeal.S1x64 b Cert.KernelIdeal.Gen.shapeCasts_S64_S1x64
      = broadcastInDim Cert.ReferenceIdeal.S1x64 ![1] Cert.ReferenceIdeal.Gen.bcast_S64_S1x64_1 b :=
  Cert.Lib.RowVector.shapeCast_eq_broadcastInDim _ _ _

/-- From memories that agree on the arguments the two programs end with the same result: the network function of
    the arguments, the kernel's with the biases reshaped to rows, the reference's with them broadcast to rows. -/
theorem algebraic : Cert.algebraic_KernelIdeal_ReferenceIdeal := by
  intro m ρ m' ρ' _ hagree
  refine ⟨_, Cert.KernelIdeal.KValue.run_net m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2.1,
    (hagree c).2.2.2.2.1, (hagree c).2.2.2.2.2.1, (hagree c).2.2.2.2.2.2.1, (hagree c).2.2.2.2.2.2.2,
    ← row128, ← row128, ← row64]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
